-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel

variable [Facts]

def fn {F : FTy → Type} [FloatOps F] (main_arg0 : FVec F S16777216x2 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  main_v3
-- ==== Kernel.lean ====
abbrev S16777216x2 : Shape := ⟨2, ![16777216, 2]⟩
abbrev S131072x128x2 : Shape := ⟨3, ![131072, 128, 2]⟩
abbrev S131072x128x1 : Shape := ⟨3, ![131072, 128, 1]⟩
abbrev S131072x128 : Shape := ⟨2, ![131072, 128]⟩
abbrev S4096x128 : Shape := ⟨2, ![4096, 128]⟩
abbrev S16777216x1 : Shape := ⟨2, ![16777216, 1]⟩

abbrev nBuf : Space → Nat
  | .hbm => 8
  | .vmem => 6
  | .smem => 0
  | _ => 0

abbrev bufTy : (tb : Table) → Fin (tcTables nBuf tb) → BufTy
  | .hbm, ⟨0, _⟩ => ⟨S16777216x2, .f32⟩
  | .hbm, ⟨1, _⟩ => ⟨S131072x128x2, .f32⟩
  | .hbm, ⟨2, _⟩ => ⟨S131072x128x1, .f32⟩
  | .hbm, ⟨3, _⟩ => ⟨S131072x128, .f32⟩
  | .hbm, ⟨4, _⟩ => ⟨S131072x128x1, .f32⟩
  | .hbm, ⟨5, _⟩ => ⟨S131072x128, .f32⟩
  | .hbm, ⟨6, _⟩ => ⟨S131072x128, .f32⟩
  | .hbm, ⟨7, _⟩ => ⟨S16777216x1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16777216x2_S131072x128x2 : S16777216x2.ShapeCasts S131072x128x2
  slices_S131072x128x2_S131072x128x1_0_0_0 : S131072x128x2.Slices ![0, 0, 0] S131072x128x1
  shapeCasts_S131072x128x1_S131072x128 : S131072x128x1.ShapeCasts S131072x128
  slices_S131072x128x2_S131072x128x1_0_0_1 : S131072x128x2.Slices ![0, 0, 1] S131072x128x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S131072x128_S16777216x1 : S131072x128.ShapeCasts S16777216x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)

variable [Facts₀]

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S16777216x1 : Shape := ⟨2, ![16777216, 1]⟩
abbrev S16777216 : Shape := ⟨1, ![16777216]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216x1, .f32⟩
  | .hbm, ⟨2, _⟩ => ⟨S16777216, .f32⟩
  | .hbm, ⟨3, _⟩ => ⟨S16777216x1, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S_, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .f32⟩
  | .hbm, ⟨20, _⟩ => ⟨S16777216, .f32⟩
  | .hbm, ⟨21, _⟩ => ⟨S16777216, .f32⟩
  | .hbm, ⟨22, _⟩ => ⟨S_, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S16777216, .f32⟩
  | .hbm, ⟨32, _⟩ => ⟨S_, .f32⟩
  | .hbm, ⟨33, _⟩ => ⟨S16777216, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S_, .f32⟩
  | .hbm, ⟨38, _⟩ => ⟨S16777216, .f32⟩
  | .hbm, ⟨39, _⟩ => ⟨S16777216, .f32⟩
  | .hbm, ⟨40, _⟩ => ⟨S16777216, .f32⟩
  | .hbm, ⟨41, _⟩ => ⟨S16777216, .f32⟩
  | .hbm, ⟨42, _⟩ => ⟨S16777216, .f32⟩
  | .hbm, ⟨43, _⟩ => ⟨S_, .f32⟩
  | .hbm, ⟨44, _⟩ => ⟨S16777216, .f32⟩
  | .hbm, ⟨45, _⟩ => ⟨S16777216, .f32⟩
  | .hbm, ⟨46, _⟩ => ⟨S_, .f32⟩
  | .hbm, ⟨47, _⟩ => ⟨S16777216, .f32⟩
  | .hbm, ⟨48, _⟩ => ⟨S16777216, .f32⟩
  | .hbm, ⟨49, _⟩ => ⟨S16777216, .f32⟩
  | .hbm, ⟨50, _⟩ => ⟨S_, .f32⟩
  | .hbm, ⟨51, _⟩ => ⟨S16777216, .f32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S16777216, .f32⟩
  | .hbm, ⟨56, _⟩ => ⟨S16777216, .f32⟩
  | .hbm, ⟨57, _⟩ => ⟨S_, .f32⟩
  | .hbm, ⟨58, _⟩ => ⟨S16777216, .f32⟩
  | .hbm, ⟨59, _⟩ => ⟨S16777216, .f32⟩
  | .hbm, ⟨60, _⟩ => ⟨S16777216, .f32⟩
  | .hbm, ⟨61, _⟩ => ⟨S16777216, .f32⟩
  | .hbm, ⟨62, _⟩ => ⟨S16777216x1, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_6 : Ref sig .tc := ⟨.hbm, 43, rfl⟩
abbrev main_v35 : Ref sig .tc := ⟨.hbm, 44, rfl⟩
abbrev main_v36 : Ref sig .tc := ⟨.hbm, 45, rfl⟩
abbrev main_cst_7 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_8 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]

class Facts₀ : Prop where
  slices_S16777216x2_S16777216x1_0_0 : S16777216x2.Slices ![0, 0] S16777216x1
  shapeCasts_S16777216x1_S16777216 : S16777216x1.ShapeCasts S16777216
  slices_S16777216x2_S16777216x1_0_1 : S16777216x2.Slices ![0, 1] S16777216x1
  bcast_S_S16777216 : S_.BroadcastsInDim S16777216 (![] : Fin 0 → Fin S16777216.rank)
  bcast_S16777216_S16777216x1_0 : S16777216.BroadcastsInDim S16777216x1 (![0] : Fin 1 → Fin S16777216x1.rank)

variable [Facts₀]

class Facts : Prop extends Facts₀ where

variable [Facts]
-- ==== Proof.Residual.lean ====
/-
  The residual of one row, as a function on the extended reals.

  For a row `(x, y)` put `u = exp (-(x² + 2·y² + 1))`. The row's residual is
    `-((du11 + du22) · (1 + 2·y²) + 4·y·du2) + (1 + x²) · u`
  with `du2 = -u · 4 · y`, `du11 = u² · 4 · x² - u · 2`, `du22 = u² · 16 · y² - u · 4`:
  products, sums, differences and one exponential, in this order and grouping. The four
  constants are kept as the float words that spell them (2, 1, 4 and 16 are dyadic, so each
  word denotes exactly that number); nothing below needs their values, only that both
  programs use the same words.

  `residualOfZero` is the same expression with every negation `-a` written as the difference
  `z - a` from a word `z`; at `z` the zero word the two agree on every extended real, the
  infinities included, because `0 - a = -a` there (`residualOfZero_eq`). No other law of
  arithmetic is used, so no finiteness is needed.

  `rows` is the whole result array as one function of the whole argument array, row by row.
-/
import Idealize.ShloMosaic.Lib.ValueIdx
import Idealize.ShloMosaic.PureOps.Ideal.Laws

noncomputable section

namespace Cert.Residual

open Idealize.ShloMosaic

/-- The float words of the constants 2, 1, 4 and 16, read as extended reals. -/
abbrev two : EReal := Ideal.ofBits .f32 0x40000000#32
abbrev one : EReal := Ideal.ofBits .f32 0x3F800000#32
abbrev four : EReal := Ideal.ofBits .f32 0x40800000#32
abbrev sixteen : EReal := Ideal.ofBits .f32 0x41800000#32

/-- `u = exp (-(x² + 2·y² + 1))`. -/
def u (x y : EReal) : EReal := Ideal.exp (-(x * x + two * (y * y) + one))

/-- The residual of the row `(x, y)`. -/
def residual (x y : EReal) : EReal :=
  -(((u x y * u x y * four * (x * x) - u x y * two) + (u x y * u x y * sixteen * (y * y) - u x y * four))
        * (one + two * (y * y))
      + four * y * (-(u x y) * four * y))
    + (one + x * x) * u x y

/-- `u` with its negation written as a difference from `z`. -/
def uOfZero (z x y : EReal) : EReal := Ideal.exp (z - (x * x + two * (y * y) + one))

/-- The residual with each negation written as a difference from `z`. -/
def residualOfZero (z x y : EReal) : EReal :=
  (z - (((uOfZero z x y * uOfZero z x y * four * (x * x) - uOfZero z x y * two)
            + (uOfZero z x y * uOfZero z x y * sixteen * (y * y) - uOfZero z x y * four))
          * (one + two * (y * y))
        + four * y * ((z - uOfZero z x y) * four * y)))
    + (one + x * x) * uOfZero z x y

/-- From the zero word a difference is the negation, on every extended real. -/
theorem residualOfZero_eq (x y : EReal) :
    residualOfZero (Ideal.ofBits .f32 0x00000000#32) x y = residual x y := by
  unfold residualOfZero residual uOfZero u
  rw [Ideal.ofBits_zero_f32]
  simp only [zero_sub]

/-- The result array as ONE function of the argument array: the argument has a row `(x, y)` per index
    `n` of its long axis, the result one element per row, and element `n` of the result is the
    residual of row `n`. -/
def rows (X : (⟨2, ![16777216, 2]⟩ : Shape).Idx → EReal) : (⟨2, ![16777216, 1]⟩ : Shape).Idx → EReal :=
  fun i => residual (X (ValueIdx.ix2 (n0 := 16777216) (n1 := 2) (i 0) 0))
    (X (ValueIdx.ix2 (n0 := 16777216) (n1 := 2) (i 0) 1))

end Cert.Residual

end
-- ==== Proof.RefRows.lean ====
/-
  The reference, read row by row.

  The reference slices column 0 and column 1 out of the argument, drops the unit axis, computes the
  residual with elementwise host operations on the two length-16777216 vectors, and puts the unit
  axis back. So element `n` of each column vector is the argument at `(n, 0)` and `(n, 1)`
  (`x_apply`, `y_apply`), every later stage at `n` is an operation of stages at `n`
  (`row_apply`: the residual of the two column elements), and the result at `(n, 0)` is that
  stage at `n` (`result_eq`): the reference's result array is `Residual.rows` of its argument.
-/
import proofs.«140781_j13572096655541_2_alg».proof.Proof.Gen.ReferenceIdeal.Read
import proofs.«140781_j13572096655541_2_alg».proof.Proof.Residual
import Idealize.ShloMosaic.Lib.ValueIdx

noncomputable section

namespace Cert.ReferenceIdeal.Rows

open Cert.ReferenceIdeal Cert.ReferenceIdeal.Read Idealize.ShloMosaic Idealize.ShloMosaic.ValueIdx Cert.Residual

variable (x0 : (⟨S16777216x2, .f32⟩ : BufTy).Contents (Elt Ideal))

/-- Element `n` of the first column vector is the argument at row `n`, column 0. -/
theorem x_apply (k : S16777216.Idx) :
    val_main_v1 (F := Ideal) x0 k = x0 (ix2 (n0 := 16777216) (n1 := 2) (k 0) 0) := by
  rw [val_main_v1_apply, val_main_v0_apply]
  refine congrArg x0 (funext fun a => Fin.ext ?_)
  match a with
  | ⟨0, _⟩ => show (k 0).val / 1 = (k 0).val; omega
  | ⟨1, _⟩ => rfl

/-- Element `n` of the second column vector is the argument at row `n`, column 1. -/
theorem y_apply (k : S16777216.Idx) :
    val_main_v3 (F := Ideal) x0 k = x0 (ix2 (n0 := 16777216) (n1 := 2) (k 0) 1) := by
  rw [val_main_v3_apply, val_main_v2_apply]
  refine congrArg x0 (funext fun a => Fin.ext ?_)
  match a with
  | ⟨0, _⟩ => show (k 0).val / 1 = (k 0).val; omega
  | ⟨1, _⟩ => rfl

/-- The last elementwise stage at `n` is the residual of the two column elements at `n`: every
    stage between reads its operands at `n`, and a splat constant reads its word. -/
theorem row_apply (k : S16777216.Idx) :
    val_main_v49 (F := Ideal) x0 k = residual (val_main_v1 x0 k) (val_main_v3 x0 k) := by
  simp only [val_main_v49_apply, val_main_v48_apply, val_main_v47_apply, val_main_v46_apply, val_main_cst_9_apply, val_main_v45_apply, val_main_v44_apply, val_main_v43_apply, val_main_v42_apply, val_main_v41_apply, val_main_v40_apply, val_main_cst_8_apply, val_main_v39_apply, val_main_v38_apply, val_main_v37_apply, val_main_cst_7_apply, val_main_v36_apply, val_main_v35_apply, val_main_cst_6_apply, val_main_v34_apply, val_main_v33_apply, val_main_v32_apply, val_main_v31_apply, val_main_v30_apply, val_main_cst_5_apply, val_main_v29_apply, val_main_v28_apply, val_main_v27_apply, val_main_v26_apply, val_main_cst_4_apply, val_main_v25_apply, val_main_v24_apply, val_main_v23_apply, val_main_v22_apply, val_main_cst_3_apply, val_main_v21_apply, val_main_v20_apply, val_main_v19_apply, val_main_v18_apply, val_main_cst_2_apply, val_main_v17_apply, val_main_v16_apply, val_main_v15_apply, val_main_v14_apply, val_main_cst_1_apply, val_main_v13_apply, val_main_v12_apply, val_main_v11_apply, val_main_v10_apply, val_main_v9_apply, val_main_cst_0_apply, val_main_v8_apply, val_main_v7_apply, val_main_v6_apply, val_main_cst_apply, val_main_v5_apply, val_main_v4_apply,
    Ideal.ofBits_def, Ideal.addf_def, Ideal.subf_def, Ideal.mulf_def, Ideal.hostNegf_def, Ideal.negf_def,
    Ideal.hostUnary_exp_def]
  rfl

/-- The reference's result array is `rows` of its argument array. -/
theorem result_eq : val_main_v50 (F := Ideal) x0 = rows x0 := by
  funext i
  rw [val_main_v50_apply, row_apply, x_apply, y_apply]
  rfl

end Cert.ReferenceIdeal.Rows

end
-- ==== Proof.KernelPayload.lean ====
/-
  What the kernel body stores, read at one element of the block.

  The body loads the block of `x` values and the block of `y` values, computes on them with
  pointwise operations only (the two shape casts it applies are casts of a shape to itself,
  the identity), and stores one block. So the element at position `j` of what it stores depends
  on the two loaded elements at `j` alone: it is the row residual of `(a j, b j)`, the body
  spelling each negation as a difference from the zero word.
-/
import proofs.«140781_j13572096655541_2_alg».proof.Proof.Gen.KernelIdeal.Skeleton
import proofs.«140781_j13572096655541_2_alg».proof.Proof.Residual
import Idealize.ShloMosaic.Lib.Pipeline.Value

noncomputable section

namespace Cert.KernelIdeal.Payload

open Cert.KernelIdeal Cert.KernelIdeal.Gen Idealize.ShloMosaic Idealize.ShloMosaic.ValueIdx Cert.Residual

/-- The cast of the `y` block to its own shape is the block. -/
theorem y_cast (b : Vec Ideal S4096x128 .f32) : k0_pay2 (F := Ideal) b = b := by
  unfold k0_pay2
  exact shapeCast_self _ _

/-- The square of the `x` block, element by element. -/
theorem x_sq (a : Vec Ideal S4096x128 .f32) (j : S4096x128.Idx) : k0_pay3 (F := Ideal) a j = a j * a j := by
  unfold k0_pay3
  rw [shapeCast_self]
  rfl

/-- The square of the `y` block, element by element. -/
theorem y_sq (b : Vec Ideal S4096x128 .f32) (j : S4096x128.Idx) : k0_pay4 (F := Ideal) b j = b j * b j := by
  unfold k0_pay4
  rw [y_cast]
  rfl

/-- The exponential the body computes, element by element. -/
theorem u_apply (a b : Vec Ideal S4096x128 .f32) (j : S4096x128.Idx) :
    k0_pay5 (F := Ideal) a b j = uOfZero (Ideal.ofBits .f32 0x00000000#32) (a j) (b j) := by
  unfold k0_pay5 uOfZero
  show Ideal.exp (Ideal.ofBits .f32 0x00000000#32 - (k0_pay3 a j + two * k0_pay4 b j + one)) = _
  rw [x_sq, y_sq]

/-- The stored block at `j` is the row residual of the loaded elements at `j`. -/
theorem stored_apply (a b : Vec Ideal S4096x128 .f32) (j : S4096x128.Idx) :
    k0_pay1 (F := Ideal) (k0_pay3 a) (k0_pay5 a b) (k0_pay6 a b) (Scalar.ofBits .f32 0x00000000#32) j
      = residual (a j) (b j) := by
  rw [← residualOfZero_eq]
  unfold k0_pay1 k0_pay6 residualOfZero
  show (Ideal.ofBits .f32 0x00000000#32
        - (((k0_pay5 a b j * k0_pay5 a b j * four * k0_pay3 a j - k0_pay5 a b j * two)
              + (k0_pay5 a b j * k0_pay5 a b j * sixteen * k0_pay4 b j - k0_pay5 a b j * four))
            * (one + two * k0_pay4 b j)
          + four * k0_pay2 b j * ((Ideal.ofBits .f32 0x00000000#32 - k0_pay5 a b j) * four * k0_pay2 b j)))
      + (one + k0_pay3 a j) * k0_pay5 a b j = _
  rw [u_apply, x_sq, y_sq, y_cast]

end Cert.KernelIdeal.Payload

end
-- ==== Proof.KernelBlocks.lean ====
/-
  From the kernel's blocks to its whole output array.

  The grid has 32 points; at point `t` each of the three windows takes block `(t, 0)` of its
  `[131072, 128]` array: rows `4096·t … 4096·t + 4095`, all 128 lanes. The body's stored block
  at a position is the residual of the two loaded elements at that position, and the two input
  blocks and the output block sit over the same rows, so what point `t` writes back is block `t`
  of ONE array: the residual, position by position, of the `x` array and the `y` array as the
  region found them. Every row `r` lies in the block of point `r / 4096`, so the 32 blocks
  cover the output array, and it ends holding that array.
-/
import proofs.«140781_j13572096655541_2_alg».proof.Proof.Gen.KernelIdeal.Frame
import proofs.«140781_j13572096655541_2_alg».proof.Proof.KernelPayload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem Cert.Residual
open Idealize.ShloMosaic.Pipeline (Dat)

variable (m : (ℓ : Loc nD τ sig) → Buf (Elt Ideal) ℓ)

/-- The body's one rectangle starts at the block's origin. -/
theorem origin : (![0, 0] : Fin 2 → Nat) = fun _ => 0 := funext fun a => by fin_cases a <;> rfl

/-- At point `t` every window takes block `(t, 0)` of its array (decided over the 32 points). -/
theorem block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- The residual of two `[131072, 128]` arrays, position by position. -/
def pointwise (X Y : S131072x128.Idx → EReal) : S131072x128.Idx → EReal := fun i => residual (X i) (Y i)

/-- What point `t` writes back is block `t` of the position-by-position residual of the `x` and `y`
    arrays as the region found them. -/
theorem flushed_eq (c : Dev nD) (t : Fin cfg0.N) :
    (dats m 0 c).flushed 2 t
      = ((cfg0.win 2).blk t).view.read (Elt Ideal) (pointwise (V m c main_v2) (V m c main_v4)) := by
  show (cfg0.win 2).cut (grid0.coords t) ((dats m 0 c).after 2 t) = _
  rw [after0_2]
  unfold out0_2
  rw [View.canon_unit_zero origin]
  simp only [View.ld_unit_zero (S := S4096x128) origin]
  obtain ⟨e0, e1, e2, e3, e4, e5⟩ := block_of_point t
  funext j
  show k0_pay1 (k0_pay3 (iblk m c 0 t)) (k0_pay5 (iblk m c 0 t) (iblk m c 1 t)) (k0_pay6 (iblk m c 0 t) (iblk m c 1 t))
        (Scalar.ofBits .f32 0x00000000#32) j
      = residual (V m c main_v2 (((cfg0.win 2).blk t).view.emb j)) (V m c main_v4 (((cfg0.win 2).blk t).view.emb j))
  refine (Payload.stored_apply (iblk m c 0 t) (iblk m c 1 t) j).trans ?_
  show residual (V m c main_v2 (((cfg0.win 0).blk t).view.emb j)) (V m c main_v4 (((cfg0.win 1).blk t).view.emb j)) = _
  have hj0 : (j 0).val < 4096 := (j 0).isLt
  have hj1 : (j 1).val < 128 := (j 1).isLt
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 128 + 1 * (j 1).val = win0_2.index t (1 : Fin 2) * 128 + 1 * (j 1).val; omega
  rw [h0, h1]

/-- A position of the output array is in point `t`'s block iff each coordinate is in the block's range. -/
theorem mem_blk (t : Fin cfg0.N) (i : S131072x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v5).slice (win0_2.rect t)).set ↔ _
  rw [View.set_slice_whole, Rect.mem_set_unit]
  exact Iff.rfl

/-- Row `r` of the output array lies in the block of point `r / 4096`: the blocks cover the array. -/
theorem cover (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  have hN : cfg0.N = 32 := N_0
  obtain ⟨t, ht⟩ : ∃ t : Fin cfg0.N, t.val = (i 0).val / 4096 := ⟨⟨(i 0).val / 4096, by rw [hN]; omega⟩, rfl⟩
  obtain ⟨-, -, -, -, e4, e5⟩ := block_of_point t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 128 ≤ (i 1).val ∧ (i 1).val < win0_2.index t (1 : Fin 2) * 128 + 128
    omega

/-- After the region the output array is the position-by-position residual of the `x` and `y` arrays. -/
theorem final (c : Dev nD) :
    (dats m 0 c).arrAt 2 cfg0.N = pointwise (V m c main_v2) (V m c main_v4) :=
  (dats m 0 c).arrAt_eq_of_cover 2 (pointwise (V m c main_v2) (V m c main_v4)) (fun t _ => flushed_eq m c t) cover

end Cert.KernelIdeal.Blocks

end
-- ==== Proof.KernelColumns.lean ====
/-
  The two arrays the kernel's region is launched on, read at an index.

  Before the region the host re-lays the argument `[16777216, 2]` as `[131072, 128, 2]` (row `n`
  becomes `(n / 128, n % 128)`: the same row-major position), slices the last axis at 0 for the
  `x` column and at 1 for the `y` column, and drops the unit axis. So the `x` array at `(r, l)`
  is the argument at `(128·r + l, 0)` and the `y` array at `(r, l)` is the argument at
  `(128·r + l, 1)`.
-/
import proofs.«140781_j13572096655541_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Columns

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The `x` array as the region finds it: the host operations' term of the argument. -/
theorem xcol_term (c : Dev nD) :
    (V m c main_v2 : S131072x128.Idx → EReal)
      = shapeCast S131072x128 (extractStridedSlice S131072x128x1 ![0, 0, 0]
          (shapeCast S131072x128x2 (m ((c : Thread nD τ).loc main_arg0)) shapeCasts_S16777216x2_S131072x128x2)
          slices_S131072x128x2_S131072x128x1_0_0_0) shapeCasts_S131072x128x1_S131072x128 := by
  show StableHlo.after hostOps0 (fun b => m (c, b)) (Proc.devRef .tc main_v2) = _
  after_results
  rfl

/-- The `y` array as the region finds it. -/
theorem ycol_term (c : Dev nD) :
    (V m c main_v4 : S131072x128.Idx → EReal)
      = shapeCast S131072x128 (extractStridedSlice S131072x128x1 ![0, 0, 1]
          (shapeCast S131072x128x2 (m ((c : Thread nD τ).loc main_arg0)) shapeCasts_S16777216x2_S131072x128x2)
          slices_S131072x128x2_S131072x128x1_0_0_1) shapeCasts_S131072x128x1_S131072x128 := by
  show StableHlo.after hostOps0 (fun b => m (c, b)) (Proc.devRef .tc main_v4) = _
  after_results
  rfl

/-- A column array at `(r, l)` is the argument at row `128·r + l`, at the column `col` the slice
    was taken at: the two shape casts keep the row-major position, the slice shifts the last
    coordinate by `col`. -/
theorem col_apply (X : S16777216x2.Idx → EReal) (col : Nat) (hcol : col < 2)
    (hs : S131072x128x2.Slices ![0, 0, col] S131072x128x1)
    (j : S131072x128.Idx) (k : S16777216x2.Idx)
    (h0 : (k 0).val = (j 0).val * 128 + (j 1).val) (h1 : (k 1).val = col) :
    shapeCast S131072x128 (extractStridedSlice S131072x128x1 ![0, 0, col]
        (shapeCast S131072x128x2 X shapeCasts_S16777216x2_S131072x128x2) hs)
      shapeCasts_S131072x128x1_S131072x128 j = X k := by
  have hj0 : (j 0).val < 131072 := (j 0).isLt
  have hj1 : (j 1).val < 128 := (j 1).isLt
  refine (shapeCast_apply _ _ j (ix3 (n0 := 131072) (n1 := 128) (n2 := 1) (j 0) (j 1) 0) ?_).trans ?_
  · rw [Shape.rowMajor_val_three, Shape.rowMajor_val_two]
    show ((j 0).val * 128 + (j 1).val) * 1 + 0 = (j 0).val * 128 + (j 1).val
    omega
  refine (extractStridedSlice_apply _ _ hs _ (ix3 (n0 := 131072) (n1 := 128) (n2 := 2) (j 0) (j 1) ⟨col, hcol⟩) ?_).trans ?_
  · intro a
    match a with
    | ⟨0, _⟩ => show (j 0).val = 0 + (j 0).val; omega
    | ⟨1, _⟩ => show (j 1).val = 0 + (j 1).val; omega
    | ⟨2, _⟩ => show col = col + 0; omega
  refine shapeCast_apply _ _ _ k ?_
  rw [Shape.rowMajor_val_two, Shape.rowMajor_val_three]
  show (k 0).val * 2 + (k 1).val = ((j 0).val * 128 + (j 1).val) * 2 + col
  omega

/-- The `x` array at `(r, l)` is the argument at `(128·r + l, 0)`. -/
theorem xcol_apply (c : Dev nD) (j : S131072x128.Idx) (k : S16777216x2.Idx)
    (h0 : (k 0).val = (j 0).val * 128 + (j 1).val) (h1 : (k 1).val = 0) :
    (V m c main_v2 : S131072x128.Idx → EReal) j
      = (m ((c : Thread nD τ).loc main_arg0) : S16777216x2.Idx → EReal) k := by
  rw [xcol_term]
  exact col_apply _ 0 (by omega) slices_S131072x128x2_S131072x128x1_0_0_0 j k h0 h1

/-- The `y` array at `(r, l)` is the argument at `(128·r + l, 1)`. -/
theorem ycol_apply (c : Dev nD) (j : S131072x128.Idx) (k : S16777216x2.Idx)
    (h0 : (k 0).val = (j 0).val * 128 + (j 1).val) (h1 : (k 1).val = 1) :
    (V m c main_v4 : S131072x128.Idx → EReal) j
      = (m ((c : Thread nD τ).loc main_arg0) : S16777216x2.Idx → EReal) k := by
  rw [ycol_term]
  exact col_apply _ 1 (by omega) slices_S131072x128x2_S131072x128x1_0_0_1 j k h0 h1

end Cert.KernelIdeal.Columns

end
-- ==== Proof.KernelResult.lean ====
/-
  The kernel's run, read: its result array as one function of its argument array.

  After the region the host re-lays the output array `[131072, 128]` as the result
  `[16777216, 1]`: result row `n` is output position `(n / 128, n % 128)`, the same row-major
  position. The output array is the position-by-position residual of the `x` and `y` arrays,
  and those at `(n / 128, n % 128)` are the argument at `(n, 0)` and `(n, 1)`, because
  `128·(n / 128) + n % 128 = n`. So result row `n` is the residual of argument row `n`: the
  result array is `Residual.rows` of the argument array.
-/
import proofs.«140781_j13572096655541_2_alg».proof.Proof.KernelBlocks
import proofs.«140781_j13572096655541_2_alg».proof.Proof.KernelColumns
import Idealize.ShloMosaic.Lib.StableHlo.Run

noncomputable section

namespace Cert.KernelIdeal.Result

open Cert.KernelIdeal Cert.KernelIdeal.Gen Idealize.ShloMosaic Idealize.ShloMosaic.TcCoe Idealize.SL.Sem Cert.Residual
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result buffer after the host's last line: the region's output array, re-laid. -/
theorem tail_eq (c : Dev nD) :
    (Pipeline.afterTail₀ cfgs (dats m) 0 (V0 m) [hostOps1] c main_v6 : S16777216x1.Idx → EReal)
      = shapeCast S16777216x1 ((dats m 0 c).arrAt 2 cfg0.N) shapeCasts_S131072x128_S16777216x1 := by
  unfold Pipeline.afterTail₀
  show StableHlo.after hostOps1 _ (Proc.devRef .tc main_v6) = _
  after_results
  exact congrArg (fun A : S131072x128.Idx → EReal => shapeCast S16777216x1 A shapeCasts_S131072x128_S16777216x1)
    (Pipeline.withArrays_arr spec0 launch0.win.arr_inj c (V0 m c) (fun w => (dats m 0 c).arrAt w cfg0.N) 2)

/-- The result array is `rows` of the argument array. -/
theorem result_eq (c : Dev nD) :
    (Pipeline.afterTail₀ cfgs (dats m) 0 (V0 m) [hostOps1] c main_v6 : S16777216x1.Idx → EReal)
      = rows (m ((c.tc : Thread nD τ).loc main_arg0)) := by
  rw [tail_eq, Blocks.final]
  funext i
  have hi0 : (i 0).val < 16777216 := (i 0).isLt
  have hi1 : (i 1).val < 1 := (i 1).isLt
  refine (shapeCast_apply _ _ i
    (ix2 (n0 := 131072) (n1 := 128) ⟨(i 0).val / 128, by omega⟩ ⟨(i 0).val % 128, by omega⟩) ?_).trans ?_
  · rw [Shape.rowMajor_val_two, Shape.rowMajor_val_two]
    show (i 0).val / 128 * 128 + (i 0).val % 128 = (i 0).val * 1 + (i 1).val
    omega
  show residual _ _ = residual _ _
  refine congrArg₂ residual (Columns.xcol_apply m c _ _ ?_ ?_) (Columns.ycol_apply m c _ _ ?_ ?_)
  · show (i 0).val = (i 0).val / 128 * 128 + (i 0).val % 128
    omega
  · rfl
  · show (i 0).val = (i 0).val / 128 * 128 + (i 0).val % 128
    omega
  · rfl

/-- Every weakly fair execution of the kernel's program terminates with the result array at `rows` of
    the argument array and the argument array unchanged. -/
theorem run : θ_run defs (onTc (τ := τ) (main (F := Ideal))) ⟨m, fun _ => 0, ρ⟩ fun r => ∀ c : Dev nD,
      r.2.mem ((c.tc : Thread nD τ).loc main_v6) = rows (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v6 (Pipeline.mem_restRefs_of main_v6 (by decide) (by decide))).trans (result_eq m c),
        ((h c).2 main_arg0 (Pipeline.mem_restRefs_of main_arg0 (by decide) (by decide))).trans (W_main_arg0 m (dats m) c)⟩)
    (run_main m ρ)

end Cert.KernelIdeal.Result

end
-- ==== Proof.lean ====
/-
  Both programs compute, for each of the 16777216 rows `(x, y)` of the argument, the residual
    `-((du11 + du22) · (1 + 2·y²) + 4·y·du2) + (1 + x²) · u`,   `u = exp (-(x² + 2·y² + 1))`,
  with `du2 = -u · 4 · y`, `du11 = u² · 4 · x² - u · 2`, `du22 = u² · 16 · y² - u · 4`, by the same
  products, sums and differences in the same order with the same constant words (Proof/Residual.lean).
  They differ in two ways only. The kernel writes each negation as a difference from the zero word,
  and `0 - a = -a` on every extended real. And they lay the rows out differently: the reference
  slices the two columns out of the `[16777216, 2]` argument and works on length-16777216 vectors
  (Proof/RefRows.lean); the kernel re-lays the argument as `[131072, 128, 2]`, slices the two
  columns into `[131072, 128]` arrays (Proof/KernelColumns.lean), computes on 32 blocks of 4096
  rows each (Proof/KernelPayload.lean, Proof/KernelBlocks.lean) and re-lays the output as
  `[16777216, 1]` (Proof/KernelResult.lean) — every re-laying keeps the row-major position, so
  result row `n` is the residual of argument row `n` on both sides. No law that fails at an
  infinity is used, so the precondition is not opened.

  The three frames: the kernel's two are the generated frame runs; the reference has no kernel and
  its frame is its generated run with the result dropped. The idealization rewrote nothing, so
  `preserves` is `True`.
-/
import proofs.«140781_j13572096655541_2_alg».proof.Defs
import proofs.«140781_j13572096655541_2_alg».proof.Proof.Gen.Kernel
import proofs.«140781_j13572096655541_2_alg».proof.Proof.Gen.Kernel.Skeleton
import proofs.«140781_j13572096655541_2_alg».proof.Proof.Gen.Kernel.Launch
import proofs.«140781_j13572096655541_2_alg».proof.Proof.Gen.Kernel.Points
import proofs.«140781_j13572096655541_2_alg».proof.Proof.Gen.Kernel.Frame
import proofs.«140781_j13572096655541_2_alg».proof.Proof.Gen.KernelIdeal
import proofs.«140781_j13572096655541_2_alg».proof.Proof.Gen.KernelIdeal.Skeleton
import proofs.«140781_j13572096655541_2_alg».proof.Proof.Gen.KernelIdeal.Launch
import proofs.«140781_j13572096655541_2_alg».proof.Proof.Gen.KernelIdeal.Points
import proofs.«140781_j13572096655541_2_alg».proof.Proof.Gen.KernelIdeal.Frame
import proofs.«140781_j13572096655541_2_alg».proof.Proof.Gen.ReferenceIdeal
import proofs.«140781_j13572096655541_2_alg».proof.Proof.Gen.Pre_finite_inputs
import proofs.«140781_j13572096655541_2_alg».proof.Proof.Gen.ReferenceIdeal.Run
import proofs.«140781_j13572096655541_2_alg».proof.Proof.Gen.ReferenceIdeal.Read
import proofs.«140781_j13572096655541_2_alg».proof.Proof.RefRows
import proofs.«140781_j13572096655541_2_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, both programs end with the result array at
    `Residual.rows` of the argument array: the kernel by its run read back, the reference by its
    generated run, whose term is the same function row by row. -/
theorem algebraic : Cert.algebraic_KernelIdeal_ReferenceIdeal := by
  intro m ρ m' ρ' _ hagree
  refine ⟨fun c => Cert.Residual.rows (m ((c.tc : Thread Cert.KernelIdeal.nD Cert.KernelIdeal.τ).loc Cert.KernelIdeal.main_arg0)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.Rows.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
